-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S8192x4096, .bf16⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, on the extended reals: a linear layer with a pre-masked weight,

      y (t, o) = (∑ k < 4096, x (t, k) · wm (o, k)) + b (o),

  for an 8192 × 4096 input `x`, a 4096 × 4096 masked weight `wm` (the weight times the 0/1 mask, entry by entry:
  both programs form that product the same way before anything else, so it is carried here as one array) and a
  bias `b` of 4096 entries.
-/
import Idealize.ShloMosaic.Lib.ValueIdx
import Mathlib.Data.EReal.Basic

noncomputable section

namespace Cert.Spec

open Idealize.ShloMosaic Idealize.ShloMosaic.ValueIdx
open scoped BigOperators

/-- The masked linear layer, entry by entry. -/
def linear (x : (⟨2, ![8192, 4096]⟩ : Shape).Idx → EReal) (wm : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (n0 := 8192) (n1 := 4096) (i 0) k) * wm (ix2 (n0 := 4096) (n1 := 4096) (i 1) k))
    + b (ix1 (n := 4096) (i 1))

end Cert.Spec

end
-- ==== Proof.RefAt.lean ====
/-
  The reference, entry by entry.  Its result at (t, o) is the contraction over k of the input's row t with row o
  of the masked weight, plus the bias broadcast along the rows: exactly the masked linear layer of Spec.lean.
-/
import proofs.«143138_j29798483100096_2_alg».proof.Proof.Gen.ReferenceIdeal.Read
import proofs.«143138_j29798483100096_2_alg».proof.Proof.Spec

noncomputable section

namespace Cert.ReferenceIdeal.RefValue

open Cert.ReferenceIdeal Cert.ReferenceIdeal.Gen Idealize.ShloMosaic Idealize.ShloMosaic.ValueIdx

/-- The reference's result array is the masked linear layer of its arguments. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    Read.val_main_v5 (F := Ideal) x0 x1 x2 x3 = Cert.Spec.linear x0 (mulf (F := Ideal) (x1 : FVec Ideal S4096x4096 .f32) (sitofp .f32 (x3 : IVec S4096x4096 32))) x2 := by
  funext i
  have el : ∀ k : Fin 4096, Read.lidx_main_v2 i k = ix2 (n0 := 8192) (n1 := 4096) (i 0) k := fun k =>
    funext fun a => Fin.ext (by match a with | ⟨0, _⟩ => rfl | ⟨1, _⟩ => rfl)
  have er : ∀ k : Fin 4096, Read.ridx_main_v2 i k = ix2 (n0 := 4096) (n1 := 4096) (i 1) k := fun k =>
    funext fun a => Fin.ext (by match a with | ⟨0, _⟩ => rfl | ⟨1, _⟩ => rfl)
  have eb : Read.idx_main_v3 (Read.idx_main_v4 i) = ix1 (n := 4096) (i 1) :=
    funext fun a => Fin.ext (by match a with | ⟨0, _⟩ => rfl)
  rw [Read.val_main_v5_apply, Read.val_main_v2_apply, Read.val_main_v4_apply, Read.val_main_v3_apply]
  simp only [el, er, eb]
  rfl

end Cert.ReferenceIdeal.RefValue

end
-- ==== Proof.Blocks.lean ====
/-
  What the kernel's input windows hold, entry by entry, on the extended reals.

  Before the grid runs, the program narrows the input `x` to bf16, multiplies the weight by the mask (converted to
  floats) and narrows the product, and reshapes the bias to one row of 4096 entries.  On the extended reals the
  narrowings are the identity, so the three staged arrays are `x`, the masked weight, and the bias laid out as a row.

  The grid has 8 × 4 × 2 points, numbered row-major: point t has row-block t / 8, column-block (t / 2) % 4 and
  contraction-half t % 2.  At point t the body sees rows [1024 · (t / 8), +1024) and columns [2048 · (t % 2), +2048) of
  `x`; rows [1024 · ((t / 2) % 4), +1024) and the same columns of the masked weight; and entries
  [1024 · ((t / 2) % 4), +1024) of the bias row.
-/
import proofs.«143138_j29798483100096_2_alg».proof.Proof.Gen.KernelIdeal.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The masked weight: the weight times the mask (read as floats), entry by entry. -/
abbrev maskedWeight (c : Dev nD) : S4096x4096.Idx → EReal :=
  mulf (F := Ideal) (s := S4096x4096) (φ := .f32) (m ((c : Thread nD τ).loc main_arg1))
    (sitofp .f32 (m ((c : Thread nD τ).loc main_arg3) : IVec S4096x4096 32))

/-! ## The staged arrays -/

/-- The first window's array is the input `x` (narrowing to bf16 is the identity on the extended reals). -/
theorem staged_x (c : Dev nD) :
    (V m c main_v0 : S8192x4096.Idx → EReal) = m ((c : Thread nD τ).loc main_arg0) := by
  dsimp only [Gen.V, Gen.hostOps0]
  after_results
  rfl

/-- The second window's array is the masked weight: weight times mask, entry by entry. -/
theorem staged_w (c : Dev nD) :
    (V m c main_v3 : S4096x4096.Idx → EReal) = maskedWeight m c := by
  dsimp only [Gen.V, Gen.hostOps0]
  after_results
  rfl

/-- The third window's array is the bias as one row: entry (0, n) is entry n of the bias. -/
theorem staged_b (c : Dev nD) (n : Fin 4096) :
    (V m c main_v4 : S1x4096.Idx → EReal) (ix2 (0 : Fin 1) n) = m ((c : Thread nD τ).loc main_arg2) (ix1 n) := by
  have e : (V m c main_v4 : S1x4096.Idx → EReal)
      = shapeCast S1x4096 (m ((c : Thread nD τ).loc main_arg2) : S4096.Idx → EReal) shapeCasts_S4096_S1x4096 := by
    dsimp only [Gen.V, Gen.hostOps0]
    after_results
    rfl
  rw [e]
  exact shapeCast_apply _ shapeCasts_S4096_S1x4096 (ix2 (0 : Fin 1) n) (ix1 n)
    (by rw [Shape.rowMajor_val_one, Shape.rowMajor_val_two]; show n.val = 0 * 4096 + n.val; omega)

/-! ## The block indices over the grid -/

/-- The three input windows' block indices at grid point `t`, decided over the 64 points. -/
theorem block_indices : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4 :=
  (by decide +kernel : ∀ t : Fin grid0.N, _)

/-! ## The blocks read at an entry -/

/-- Entry (p, k) of the `x` block at point `t` is entry (1024 · (t / 8) + p, 2048 · (t % 2) + k) of `x`. -/
theorem x_block_apply (c : Dev nD) (t : Fin cfg0.N) (p : Fin 1024) (k : Fin 2048) (r : Fin 8192) (s : Fin 4096)
    (hr : r.val = t.val / 8 * 1024 + p.val) (hs : s.val = t.val % 2 * 2048 + k.val) :
    (iblk m c 0 t : Vec Ideal S1024x2048 .bf16) (ix2 p k) = m ((c : Thread nD τ).loc main_arg0) (ix2 r s) := by
  obtain ⟨e0, e1, -, -, -, -⟩ := block_indices t
  rw [← staged_x m c]
  show V m c main_v0 (((cfg0.win 0).blk t).view.emb (ix2 p k)) = V m c main_v0 (ix2 r s)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 2048 + 1 * k.val = s.val; omega

/-- Entry (q, k) of the masked-weight block at point `t` is entry (1024 · ((t / 2) % 4) + q, 2048 · (t % 2) + k) of
    the masked weight. -/
theorem w_block_apply (c : Dev nD) (t : Fin cfg0.N) (q : Fin 1024) (k : Fin 2048) (o : Fin 4096) (s : Fin 4096)
    (ho : o.val = t.val / 2 % 4 * 1024 + q.val) (hs : s.val = t.val % 2 * 2048 + k.val) :
    (iblk m c 1 t : Vec Ideal S1024x2048 .bf16) (ix2 q k) = maskedWeight m c (ix2 o s) := by
  obtain ⟨-, -, e0, e1, -, -⟩ := block_indices t
  rw [← staged_w m c]
  show V m c main_v3 (((cfg0.win 1).blk t).view.emb (ix2 q k)) = V m c main_v3 (ix2 o s)
  refine congrArg (V m c main_v3) (funext fun a => Fin.ext ?_)
  match a with
  | ⟨0, _⟩ => show win0_1.index t (0 : Fin 2) * 1024 + 1 * q.val = o.val; omega
  | ⟨1, _⟩ => show win0_1.index t (1 : Fin 2) * 2048 + 1 * k.val = s.val; omega

/-- Entry (0, q) of the bias block at point `t` is entry 1024 · ((t / 2) % 4) + q of the bias. -/
theorem b_block_apply (c : Dev nD) (t : Fin cfg0.N) (q : Fin 1024) (o : Fin 4096)
    (ho : o.val = t.val / 2 % 4 * 1024 + q.val) :
    (iblk m c 2 t : Vec Ideal S1x1024 .f32) (ix2 (0 : Fin 1) q) = m ((c : Thread nD τ).loc main_arg2) (ix1 o) := by
  obtain ⟨-, -, -, -, e0, e1⟩ := block_indices t
  rw [← staged_b m c o]
  show V m c main_v4 (((cfg0.win 2).blk t).view.emb (ix2 (0 : Fin 1) q)) = V m c main_v4 (ix2 (0 : Fin 1) o)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

end Cert.KernelIdeal.Blocks

end
-- ==== Proof.Payload.lean ====
/-
  The body's arithmetic, read at one entry of a 1024 × 1024 output block, on the extended reals.

  The kernel body has three pure values it stores.  The first is the all-zero block.  The second adds to a
  block `acc` the product of a 1024 × 2048 block `x` with the transpose of a 1024 × 2048 block `w`: entry (p, q) of
  the result is `acc (p, q) + ∑ k < 2048, x (p, k) · w (q, k)`.  The third adds a row vector `b` of 1024 entries to
  every row: entry (p, q) is `acc (p, q) + b (0, q)`.  Changing the float format is the identity on the extended
  reals, so the bf16 blocks enter the sums as they are.
-/
import proofs.«143138_j29798483100096_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Every entry of the block the first step of a run stores is zero. -/
theorem zero_block_apply (j : S1024x1024.Idx) : k0_pay1 (F := Ideal) j = 0 := by
  show Ideal.ofBits .f32 0x00000000#32 = 0
  exact Ideal.ofBits_zero_f32

/-- Row coordinate of the left operand's index: the output entry's row. -/
theorem lhs_row (i : S1024x1024.Idx) (r : dot_S1024x2048_S1024x2048_S1024x1024_1_1_0_0_n_n.contr.Idx) :
    (dot_S1024x2048_S1024x2048_S1024x1024_1_1_0_0_n_n.lhsIdx i r 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
/-- Column coordinate of the left operand's index: the contraction index. -/
theorem lhs_col (i : S1024x1024.Idx) (r : dot_S1024x2048_S1024x2048_S1024x1024_1_1_0_0_n_n.contr.Idx) :
    (dot_S1024x2048_S1024x2048_S1024x1024_1_1_0_0_n_n.lhsIdx i r 1).val = (r ⟨0, by decide⟩).val :=
  dot_S1024x2048_S1024x2048_S1024x1024_1_1_0_0_n_n.lhsIdx_val_of_single rfl i r
/-- Row coordinate of the right operand's index: the output entry's column (the right block is used transposed). -/
theorem rhs_row (i : S1024x1024.Idx) (r : dot_S1024x2048_S1024x2048_S1024x1024_1_1_0_0_n_n.contr.Idx) :
    (dot_S1024x2048_S1024x2048_S1024x1024_1_1_0_0_n_n.rhsIdx i r 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
/-- Column coordinate of the right operand's index: the contraction index. -/
theorem rhs_col (i : S1024x1024.Idx) (r : dot_S1024x2048_S1024x2048_S1024x1024_1_1_0_0_n_n.contr.Idx) :
    (dot_S1024x2048_S1024x2048_S1024x1024_1_1_0_0_n_n.rhsIdx i r 1).val = (r ⟨0, by decide⟩).val :=
  dot_S1024x2048_S1024x2048_S1024x1024_1_1_0_0_n_n.rhsIdx_val_of_single rfl i r

/-- The left operand of the block product at output entry (p, q) and contraction index k is x (p, k). -/
theorem lhs_at (p q : Fin 1024) (k : Fin 2048) :
    dot_S1024x2048_S1024x2048_S1024x1024_1_1_0_0_n_n.lhsIdx (ix2 p q)
      ((contrEquiv1 dot_S1024x2048_S1024x2048_S1024x1024_1_1_0_0_n_n 2048 rfl rfl).symm k) = ix2 p k := by
  have hk := contrEquiv1_symm_val dot_S1024x2048_S1024x2048_S1024x1024_1_1_0_0_n_n 2048 rfl rfl k
  exact funext fun a => Fin.ext (by
    match a with
    | ⟨0, _⟩ => exact lhs_row _ _
    | ⟨1, _⟩ => exact (lhs_col _ _).trans hk)

/-- The right operand of the block product at output entry (p, q) and contraction index k is w (q, k):
    both operands are contracted along their second axis. -/
theorem rhs_at (p q : Fin 1024) (k : Fin 2048) :
    dot_S1024x2048_S1024x2048_S1024x1024_1_1_0_0_n_n.rhsIdx (ix2 p q)
      ((contrEquiv1 dot_S1024x2048_S1024x2048_S1024x1024_1_1_0_0_n_n 2048 rfl rfl).symm k) = ix2 q k := by
  have hk := contrEquiv1_symm_val dot_S1024x2048_S1024x2048_S1024x1024_1_1_0_0_n_n 2048 rfl rfl k
  exact funext fun a => Fin.ext (by
    match a with
    | ⟨0, _⟩ => exact rhs_row _ _
    | ⟨1, _⟩ => exact (rhs_col _ _).trans hk)

/-- The accumulating step at entry (p, q): the block so far plus the 2048-term partial dot product of row p of
    `x` with row q of `w`. -/
theorem acc_block_apply (acc : Vec Ideal S1024x1024 .f32) (x w : Vec Ideal S1024x2048 .bf16) (p q : Fin 1024) :
    k0_pay2 (F := Ideal) acc x w (ix2 p q) = acc (ix2 p q) + ∑ k : Fin 2048, x (ix2 p k) * w (ix2 q k) := by
  unfold k0_pay2
  simp only [shapeCast_self]
  show acc (ix2 p q) + FloatOps.matmul (F := Ideal) dot_S1024x2048_S1024x2048_S1024x1024_1_1_0_0_n_n none x w
    (constant S1024x1024 .f32 0x00000000#32) (ix2 p q) = _
  rw [Ideal.matmul_constant_zero_apply,
    ← Equiv.sum_comp (contrEquiv1 dot_S1024x2048_S1024x2048_S1024x1024_1_1_0_0_n_n 2048 rfl rfl).symm]
  refine congrArg (acc (ix2 p q) + ·) (Finset.sum_congr rfl fun k _ => ?_)
  rw [lhs_at, rhs_at]

/-- The last step of a run at entry (p, q): the block so far plus entry q of the row vector. -/
theorem add_row_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  show acc (ix2 p q) + broadcastTo S1024x1024 b broadcasts_S1x1024_S1024x1024 (ix2 p q) = _
  rw [broadcastTo_apply b broadcasts_S1x1024_S1024x1024 (ix2 p q) (ix2 (0 : Fin 1) q) (fun a => by
    match a with
    | ⟨0, _⟩ => rfl
    | ⟨1, _⟩ => rfl)]

end Cert.KernelIdeal.Body

end
-- ==== Proof.SumSplit.lean ====
/-
  A sum of 4096 extended reals is the sum of its first 2048 terms plus the sum of its last 2048 terms.
  Only associativity of addition is used, so nothing is asked of the terms: they may be infinite.
-/
import Mathlib.Algebra.BigOperators.Fin
import Mathlib.Data.EReal.Basic

namespace Cert.SumSplit

open scoped BigOperators

/-- Splitting a 4096-term sum at its middle. -/
theorem sum_two_halves {M : Type*} [AddCommMonoid M] (f : Fin 4096 → M) :
    (∑ k : Fin 4096, f k)
      = (∑ k : Fin 2048, f ⟨k.val, Nat.lt_of_lt_of_le k.isLt (by decide)⟩)
        + ∑ k : Fin 2048, f ⟨2048 + k.val, Nat.add_lt_add_left k.isLt 2048⟩ :=
  Fin.sum_univ_add (a := 2048) (b := 2048) f

end Cert.SumSplit
-- ==== Proof.KernelAt.lean ====
/-
  The kernel's result array, entry by entry, is the masked linear layer.

  Entry (i₀, i₁) of the output lies in the block with row-block a = i₀ / 1024 and column-block b = i₁ / 1024, at
  place (p, q) = (i₀ % 1024, i₁ % 1024).  That block is filled by the run of two consecutive grid points
  2·(4a + b) and 2·(4a + b) + 1: the first stores zero and adds the partial dot product over k < 2048, the second adds
  the partial dot product over 2048 ≤ k < 4096 and then the bias.  So the entry ends at

      ((0 + ∑ k < 2048, x (i₀, k) · wm (i₁, k)) + ∑ k < 2048, x (i₀, 2048 + k) · wm (i₁, 2048 + k)) + b (i₁),

  and the two half sums make the whole sum over k < 4096 by associativity of addition alone.
-/
import proofs.«143138_j29798483100096_2_alg».proof.Proof.Blocks
import proofs.«143138_j29798483100096_2_alg».proof.Proof.Payload
import proofs.«143138_j29798483100096_2_alg».proof.Proof.SumSplit
import proofs.«143138_j29798483100096_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's result array is the masked linear layer of its arguments. -/
theorem kernel_eq (c : Dev nD) :
    (Value.G3 m c : S8192x4096.Idx → EReal)
      = Cert.Spec.linear (m ((c : Thread nD τ).loc main_arg0)) (Blocks.maskedWeight m c) (m ((c : Thread nD τ).loc main_arg2)) := by
  funext i
  have hi0 : (i 0).val < 8192 := (i 0).isLt
  have hi1 : (i 1).val < 4096 := (i 1).isLt
  have hN : cfg0.N = 64 := N_0
  have hrun : Value.run3Of i = 4 * ((i 0).val / 1024) + (i 1).val / 1024 := by
    show 4 * ((i 0).val / 1024 - 0) + 1 * ((i 1).val / 1024 - 0) = _
    omega
  have hlt : 2 * Value.run3Of i + 1 < cfg0.N := by rw [hN, hrun]; omega
  have hloc : Value.loc3Of i
      = ix2 (⟨(i 0).val % 1024, Nat.mod_lt _ (by decide)⟩ : Fin 1024) (⟨(i 1).val % 1024, Nat.mod_lt _ (by decide)⟩ : Fin 1024) :=
    funext fun a => by match a with | ⟨0, _⟩ => rfl | ⟨1, _⟩ => rfl
  unfold Value.G3
  rw [dif_pos hlt, Pipeline.accAt_succ, Pipeline.accAt_zero]
  unfold Value.step3 Value.reset3
  rw [hloc, Body.add_row_apply, Body.acc_block_apply, Body.acc_block_apply, Body.zero_block_apply, zero_add]
  unfold Cert.Spec.linear
  rw [Cert.SumSplit.sum_two_halves]
  refine congrArg₂ (· + ·) (congrArg₂ (· + ·) (Finset.sum_congr rfl fun k _ => ?_) (Finset.sum_congr rfl fun k _ => ?_)) ?_
  · rw [Blocks.x_block_apply m c _ _ k (i 0) ⟨k.val, Nat.lt_of_lt_of_le k.isLt (by decide)⟩
        (by show (i 0).val = (2 * Value.run3Of i + 0) / 8 * 1024 + (i 0).val % 1024; rw [hrun]; omega)
        (by show k.val = (2 * Value.run3Of i + 0) % 2 * 2048 + k.val; omega),
      Blocks.w_block_apply m c _ _ k (i 1) ⟨k.val, Nat.lt_of_lt_of_le k.isLt (by decide)⟩
        (by show (i 1).val = (2 * Value.run3Of i + 0) / 2 % 4 * 1024 + (i 1).val % 1024; rw [hrun]; omega)
        (by show k.val = (2 * Value.run3Of i + 0) % 2 * 2048 + k.val; omega)]
  · rw [Blocks.x_block_apply m c _ _ k (i 0) ⟨2048 + k.val, Nat.add_lt_add_left k.isLt 2048⟩
        (by show (i 0).val = (2 * Value.run3Of i + (0 + 1)) / 8 * 1024 + (i 0).val % 1024; rw [hrun]; omega)
        (by show 2048 + k.val = (2 * Value.run3Of i + (0 + 1)) % 2 * 2048 + k.val; omega),
      Blocks.w_block_apply m c _ _ k (i 1) ⟨2048 + k.val, Nat.add_lt_add_left k.isLt 2048⟩
        (by show (i 1).val = (2 * Value.run3Of i + (0 + 1)) / 2 % 4 * 1024 + (i 1).val % 1024; rw [hrun]; omega)
        (by show 2048 + k.val = (2 * Value.run3Of i + (0 + 1)) % 2 * 2048 + k.val; omega)]
  · exact Blocks.b_block_apply m c _ _ (i 1)
      (by show (i 1).val = (2 * Value.run3Of i + (0 + 1)) / 2 % 4 * 1024 + (i 1).val % 1024; rw [hrun]; omega)

end Cert.KernelIdeal.KernelValue

end
-- ==== Proof.lean ====
/-
  A linear layer with a masked weight, y = x · (W ∘ mask)ᵀ + b, for x of 8192 × 4096, W and mask of 4096 × 4096 and
  b of 4096 entries.

  The kernel forms the masked weight once, then computes the product tile by tile: each 1024 × 1024 output tile is
  zeroed, receives the partial products over the two halves of the contraction axis one after the other, and
  finally the bias.  The reference forms the same masked weight and contracts over the whole axis at once, then adds
  the bias.  On the extended reals both results are, at every entry (t, o),

      (∑ k < 4096, x (t, k) · (W (o, k) · mask (o, k))) + b (o):

  the kernel's two half sums added to zero regroup into the whole sum by associativity of addition, with no
  condition on the terms, so the finiteness of the inputs is not used.  The idealization changes nothing that needs
  an argument here (narrowing to bf16 is the identity on the extended reals), so `preserves` is trivial.
-/
import proofs.«143138_j29798483100096_2_alg».proof.Defs
import proofs.«143138_j29798483100096_2_alg».proof.Proof.Gen.Kernel.Frame
import proofs.«143138_j29798483100096_2_alg».proof.Proof.Gen.KernelIdeal.Value
import proofs.«143138_j29798483100096_2_alg».proof.Proof.Gen.Pre_finite_inputs
import proofs.«143138_j29798483100096_2_alg».proof.Proof.Gen.ReferenceIdeal.Run
import proofs.«143138_j29798483100096_2_alg».proof.Proof.RefAt
import proofs.«143138_j29798483100096_2_alg».proof.Proof.KernelAt
import Idealize.ShloMosaic.Adequacy
import Idealize.ShloMosaic.Init

noncomputable section

namespace Cert.Proof

open Idealize.ShloMosaic Idealize.SL.Sem

/-- The idealized kernel terminates without a fault and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as they were. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments, both programs end with the masked linear layer of those
    arguments in their result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v5_eq _ _ _ _).trans
    ((Cert.ReferenceIdeal.RefValue.reference_eq _ _ _ _).trans (Cert.KernelIdeal.KernelValue.kernel_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
